-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel

variable [Facts]

def fn {F : FTy → Type} [FloatOps F] (main_arg0 : FVec F S32x4096x256 .f32) (main_arg1 : FVec F S32x4096x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x4096x256 .f32 := Host.absf main_arg1
  let main_cst_0 : FVec F S_ .f32 := constant S_ .f32 0x7F800000#32
  let main_v5 : FVec F S32x4096x256 .f32 := broadcastInDim S32x4096x256 ![] bcast_S_S32x4096x256 main_cst_0
  let main_v6 : IVec S32x4096x256 1 := cmpf .olt main_v4 main_v5
  let main_c_1 : IVec S_ 1 := constantI S_ 1 1#1
  let main_v7 : IVec S_ 1 := (fun x v => Host.reduce IntOp.andi x v reducesTo_S32x4096x256_S_d0_1_2 h_S_) main_v6 main_c_1
  let main_v8 : IVec S_ 1 := andi main_v3 main_v7
  main_v8
-- ==== Kernel.lean ====
abbrev S32x4096x256 : Shape := ⟨3, ![32, 4096, 256]⟩
abbrev S32x256x256 : Shape := ⟨3, ![32, 256, 256]⟩
abbrev S1x4096x256 : Shape := ⟨3, ![1, 4096, 256]⟩
abbrev S1x256x256 : Shape := ⟨3, ![1, 256, 256]⟩
abbrev S4096x256 : Shape := ⟨2, ![4096, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x256x256, .f32⟩
  | .local _ .vmem, ⟨0, _⟩ => ⟨S1x4096x256, .f32⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x256x256, .f32⟩
  | .local _ .vmem, ⟨5, _⟩ => ⟨S1x256x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S4096x256_S4096x256_S256x256_0_0_1_1_n_n_wf : DotDims.WF S4096x256 S4096x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S32x4096x256.size a
  hwx0_0 : ∀ i : grid0.Coords, EltTy.bits .f32 = 32 ∨ (Rect.block (s := S32x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S32x4096x256.size a
  hwx0_1 : ∀ i : grid0.Coords, EltTy.bits .f32 = 32 ∨ (Rect.block (s := S32x4096x256) S1x4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S32x256x256.size a
  hwx0_2 : ∀ i : grid0.Coords, EltTy.bits .f32 = 32 ∨ (Rect.block (s := S32x256x256) S1x256x256.size (cc0_transform_2 i) (hinb0_2 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x256x256 : Shape := ⟨3, ![32, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x4096x256, .f32⟩
  | .hbm, ⟨2, _⟩ => ⟨S32x256x256, .f32⟩
  | .hbm, ⟨3, _⟩ => ⟨S_, .f32⟩
  | .hbm, ⟨4, _⟩ => ⟨S32x256x256, .f32⟩
  | .hbm, ⟨5, _⟩ => ⟨S32x256x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S32x256x256 : S_.BroadcastsInDim S32x256x256 (![] : Fin 0 → Fin S32x256x256.rank)
  dot_S32x4096x256_S32x4096x256_S32x256x256_1_1_2_2_0_0_wf : DotDims.WF S32x4096x256 S32x4096x256 S32x256x256 [1] [1] [2] [2] [0] [0]

variable [Facts₀]

def dot_S32x4096x256_S32x4096x256_S32x256x256_1_1_2_2_0_0 : DotDims S32x4096x256 S32x4096x256 S32x256x256 where
  lhsContracting := [1]
  rhsContracting := [1]
  lhsNonContracting := [2]
  rhsNonContracting := [2]
  lhsBatch := [0]
  rhsBatch := [0]
  wf := dot_S32x4096x256_S32x4096x256_S32x256x256_1_1_2_2_0_0_wf

class Facts : Prop extends Facts₀ where

variable [Facts]
-- ==== Proof.Scale.lean ====
/-
  The two float words that scale the outer-product mean, read as extended reals, and the one law that joins the
  two programs.

  The kernel multiplies the contraction by the f32 word 0x39800000: sign 0, exponent field 115, significand 0,
  that is 2^(115 - 127) = 2^(-12) = 1/4096, with no rounding because 4096 is a power of two. The reference divides
  by the f32 word 0x45800000: exponent field 139, significand 0, that is 2^12 = 4096. On the extended reals a
  quotient by a nonzero real is the product with its reciprocal at every argument, the two infinities included,
  so the two scalings are one function and no finiteness of the sum is needed.
-/
import Idealize.ShloMosaic.PureOps.Ideal

noncomputable section

namespace Cert.OuterMean

open Idealize.ShloMosaic

/-- The reference's divisor word denotes the real 4096. -/
theorem word_4096 : Ideal.ofBits .f32 0x45800000#32 = ((4096 : ℝ) : EReal) := by
  simp [Ideal.ofBits, Ideal.ieee, -EReal.coe_mul]; norm_num

/-- The kernel's scale word denotes the real 1/4096 exactly. -/
theorem word_inv_4096 : Ideal.ofBits .f32 0x39800000#32 = ((1 / 4096 : ℝ) : EReal) := by
  simp [Ideal.ofBits, Ideal.ieee, -EReal.coe_mul]; norm_num

/-- Dividing by 4096 is multiplying by 1/4096, for every extended real. -/
theorem div_word_eq_mul_word (x : EReal) :
    Ideal.div x (Ideal.ofBits .f32 0x45800000#32) = x * Ideal.ofBits .f32 0x39800000#32 := by
  rw [word_4096, word_inv_4096]
  exact Ideal.div_coe (by norm_num : (4096 : ℝ) ≠ 0) x

end Cert.OuterMean

end
-- ==== Proof.Spec.lean ====
/-
  The outer-product mean, as one function of the two argument arrays.

  For a batch entry b, a row p of the first operand's columns and a column q of the second's, the result is the
  sum over the 4096 positions s of A[b, s, p] * B[b, s, q], scaled by 1/4096: the mean over s of the outer
  products of the s-th rows. The scale is kept as the float word the kernel spells (Scale.lean reads it as the
  real 1/4096); the sum is a sum in the extended reals, where addition is commutative and associative, so the
  order in which either program walks s does not matter.
-/
import Idealize.ShloMosaic.PureOps.Ideal
import Idealize.ShloMosaic.Lib.ValueIdx

noncomputable section

namespace Cert.OuterMean

open Idealize.ShloMosaic Idealize.ShloMosaic.ValueIdx
open scoped BigOperators

/-- Entry (b, p, q) of the mean of outer products: the contraction over the 4096 positions, times 1/4096. -/
def outerMean (A B : (⟨3, ![32, 4096, 256]⟩ : Shape).Idx → EReal) : (⟨3, ![32, 256, 256]⟩ : Shape).Idx → EReal :=
  fun i => (∑ k : Fin 4096, A (ix3 (n0 := 32) (n1 := 4096) (n2 := 256) (i 0) k (i 1))
                          * B (ix3 (n0 := 32) (n1 := 4096) (n2 := 256) (i 0) k (i 2)))
            * Ideal.ofBits .f32 0x39800000#32

end Cert.OuterMean

end
-- ==== Proof.RefMean.lean ====
/-
  The reference computes the outer-product mean.

  Its four host operations are a batched contraction over the position axis (batch axis 0 of both operands,
  contracted axis 1 of both), the constant 4096 broadcast over the result, and an elementwise quotient. Read at
  an index (b, p, q) the contraction is the sum over s of A[b, s, p] * B[b, s, q]; the quotient by 4096 is the
  product with 1/4096 on every extended real (Scale.lean), which is the specification's entry.
-/
import proofs.«106502_j17875653886367_2_alg».proof.Proof.Gen.ReferenceIdeal.Read
import proofs.«106502_j17875653886367_2_alg».proof.Proof.Scale
import proofs.«106502_j17875653886367_2_alg».proof.Proof.Spec

noncomputable section

namespace Cert.OuterMean

open Idealize.ShloMosaic Idealize.ShloMosaic.ValueIdx Cert.ReferenceIdeal
open scoped BigOperators

/-- The reference's last stage, as a function of the two argument arrays, is the outer-product mean. -/
theorem reference_eq_outerMean (A B : (⟨S32x4096x256, .f32⟩ : BufTy).Contents (Elt Ideal)) :
    Read.val_main_v2 (F := Ideal) A B = outerMean A B := by
  funext i
  -- the contraction's left operand index at (b, p, q) and position s is (b, s, p); the right one is (b, s, q)
  have el : ∀ k : Fin 4096, Read.lidx_main_v0 i k = ix3 (n0 := 32) (n1 := 4096) (n2 := 256) (i 0) k (i 1) :=
    fun k => funext fun a => by match a with | ⟨0, _⟩ => rfl | ⟨1, _⟩ => rfl | ⟨2, _⟩ => rfl
  have er : ∀ k : Fin 4096, Read.ridx_main_v0 i k = ix3 (n0 := 32) (n1 := 4096) (n2 := 256) (i 0) k (i 2) :=
    fun k => funext fun a => by match a with | ⟨0, _⟩ => rfl | ⟨1, _⟩ => rfl | ⟨2, _⟩ => rfl
  rw [Read.val_main_v2_apply, Read.val_main_v0_apply, Read.val_main_v1_apply, Read.val_main_cst_apply]
  simp only [el, er, Ideal.hostDivf_def, Ideal.ofBits_def]
  exact div_word_eq_mul_word _

end Cert.OuterMean

end
-- ==== Proof.BodyMean.lean ====
/-
  What the kernel's body computes for one batch entry.

  The body loads the two [1, 4096, 256] blocks of its batch entry, drops their leading unit axis, narrows them to
  bf16 (the identity on exact values), contracts axis 0 of both into a zero accumulator, multiplies every entry by
  the scale word, and restores a leading unit axis. So entry (0, p, q) of what it stores is the sum over the 4096
  positions s of x0[0, s, p] * x1[0, s, q], times the scale: the specification's entry with the batch coordinate
  fixed by the block.
-/
import proofs.«106502_j17875653886367_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.OuterMean

open Idealize.ShloMosaic Idealize.ShloMosaic.ValueIdx Cert.KernelIdeal
open scoped BigOperators

/-- Dropping the leading unit axis of a [1, 4096, 256] block: entry (s, p) is entry (0, s, p). -/
theorem dropUnit_apply {α : Type} (v : S1x4096x256.Idx → α) (h : S1x4096x256.ShapeCasts S4096x256)
    (s : Fin 4096) (p : Fin 256) :
    shapeCast S4096x256 v h (ix2 s p) = v (ix3 (0 : Fin 1) s p) :=
  (shapeCast_dropUnit_apply ![4096, 256] v h (ix2 s p)).trans
    (congrArg v (funext fun a => by match a with | ⟨0, _⟩ => rfl | ⟨1, _⟩ => rfl | ⟨2, _⟩ => rfl))

/-- Restoring a leading unit axis on a [256, 256] value: entry (z, p, q) is entry (p, q). -/
theorem addUnit_apply {α : Type} (v : S256x256.Idx → α) (h : S256x256.ShapeCasts S1x256x256)
    (z : Fin 1) (p q : Fin 256) :
    shapeCast S1x256x256 v h (ix3 z p q) = v (ix2 p q) :=
  (shapeCast_addUnit_apply ![256, 256] v h (ix3 z p q)).trans
    (congrArg v (funext fun a => by match a with | ⟨0, _⟩ => rfl | ⟨1, _⟩ => rfl))

/-- The contraction's left operand index: its contracted axis 0 carries the contraction index. -/
theorem lhs_axis0 (j : S256x256.Idx) (k : dot_S4096x256_S4096x256_S256x256_0_0_1_1_n_n.contr.Idx) :
    (dot_S4096x256_S4096x256_S256x256_0_0_1_1_n_n.lhsIdx j k 0).val = (k ⟨0, by decide⟩).val :=
  dot_S4096x256_S4096x256_S256x256_0_0_1_1_n_n.lhsIdx_val_of_single rfl j k
/-- Its free axis 1 carries the result's row coordinate. -/
theorem lhs_axis1 (j : S256x256.Idx) (k : dot_S4096x256_S4096x256_S256x256_0_0_1_1_n_n.contr.Idx) :
    (dot_S4096x256_S4096x256_S256x256_0_0_1_1_n_n.lhsIdx j k 1).val = (j 0).val := by
  unfold DotDims.lhsIdx
  rw [dif_neg (show ¬(1 : Fin S4096x256.rank) ∈ dot_S4096x256_S4096x256_S256x256_0_0_1_1_n_n.lhsBatch by decide),
    dif_pos (show (1 : Fin S4096x256.rank) ∈ dot_S4096x256_S4096x256_S256x256_0_0_1_1_n_n.lhsNonContracting by decide)]
  rfl
/-- The right operand index: its contracted axis 0 carries the contraction index. -/
theorem rhs_axis0 (j : S256x256.Idx) (k : dot_S4096x256_S4096x256_S256x256_0_0_1_1_n_n.contr.Idx) :
    (dot_S4096x256_S4096x256_S256x256_0_0_1_1_n_n.rhsIdx j k 0).val = (k ⟨0, by decide⟩).val :=
  dot_S4096x256_S4096x256_S256x256_0_0_1_1_n_n.rhsIdx_val_of_single rfl j k
/-- Its free axis 1 carries the result's column coordinate. -/
theorem rhs_axis1 (j : S256x256.Idx) (k : dot_S4096x256_S4096x256_S256x256_0_0_1_1_n_n.contr.Idx) :
    (dot_S4096x256_S4096x256_S256x256_0_0_1_1_n_n.rhsIdx j k 1).val = (j 1).val := by
  unfold DotDims.rhsIdx
  rw [dif_neg (show ¬(1 : Fin S4096x256.rank) ∈ dot_S4096x256_S4096x256_S256x256_0_0_1_1_n_n.rhsBatch by decide),
    dif_pos (show (1 : Fin S4096x256.rank) ∈ dot_S4096x256_S4096x256_S256x256_0_0_1_1_n_n.rhsNonContracting by decide)]
  rfl

/-- The contraction of axis 0 of both [4096, 256] operands into a zero accumulator, at (p, q): the sum over the
    positions s of the left operand at (s, p) times the right operand at (s, q). -/
theorem contraction_apply (l r : FVec Ideal S4096x256 .bf16) (p q : Fin 256) :
    matmul dot_S4096x256_S4096x256_S256x256_0_0_1_1_n_n none l r (constant S256x256 .f32 0x00000000#32) (ix2 p q)
      = ∑ s : Fin 4096, l (ix2 s p) * r (ix2 s q) := by
  refine (Ideal.matmul_constant_zero_apply dot_S4096x256_S4096x256_S256x256_0_0_1_1_n_n none l r (ix2 p q)).trans ?_
  rw [← Equiv.sum_comp (contrEquiv1 dot_S4096x256_S4096x256_S256x256_0_0_1_1_n_n 4096 rfl rfl).symm]
  refine Finset.sum_congr rfl fun s _ => ?_
  have hs := contrEquiv1_symm_val dot_S4096x256_S4096x256_S256x256_0_0_1_1_n_n 4096 rfl rfl s
  have el : dot_S4096x256_S4096x256_S256x256_0_0_1_1_n_n.lhsIdx (ix2 p q) ((contrEquiv1 dot_S4096x256_S4096x256_S256x256_0_0_1_1_n_n 4096 rfl rfl).symm s) = ix2 s p :=
    funext fun a => Fin.ext (by
      match a with
      | ⟨0, _⟩ => exact (lhs_axis0 _ _).trans hs
      | ⟨1, _⟩ => exact lhs_axis1 _ _)
  have er : dot_S4096x256_S4096x256_S256x256_0_0_1_1_n_n.rhsIdx (ix2 p q) ((contrEquiv1 dot_S4096x256_S4096x256_S256x256_0_0_1_1_n_n 4096 rfl rfl).symm s) = ix2 s q :=
    funext fun a => Fin.ext (by
      match a with
      | ⟨0, _⟩ => exact (rhs_axis0 _ _).trans hs
      | ⟨1, _⟩ => exact rhs_axis1 _ _)
  rw [el, er]

/-- The body's stored value at (z, p, q): the contraction of the two loaded blocks over the positions, scaled. -/
theorem payload_apply (x0 x1 : Vec Ideal S1x4096x256 .f32) (z : Fin 1) (p q : Fin 256) :
    Gen.k0_pay1 (F := Ideal) x0 x1 (ix3 z p q)
      = (∑ s : Fin 4096, x0 (ix3 (0 : Fin 1) s p) * x1 (ix3 (0 : Fin 1) s q)) * Ideal.ofBits .f32 0x39800000#32 := by
  unfold Gen.k0_pay1
  refine (addUnit_apply _ _ z p q).trans ?_
  refine (mulf_apply _ _ (ix2 p q)).trans ?_
  refine congrArg₂ (· * ·) ?_ rfl
  refine (contraction_apply _ _ p q).trans ?_
  refine Finset.sum_congr rfl fun s _ => ?_
  refine congrArg₂ (· * ·) ?_ ?_
  -- narrowing to bf16 is the identity on exact values, so each factor is the block's entry with its unit axis dropped
  · show shapeCast S4096x256 x0 _ (ix2 s p) = x0 (ix3 (0 : Fin 1) s p)
    exact dropUnit_apply x0 _ s p
  · show shapeCast S4096x256 x1 _ (ix2 s q) = x1 (ix3 (0 : Fin 1) s q)
    exact dropUnit_apply x1 _ s q

end Cert.OuterMean

end
-- ==== Proof.Blocks.lean ====
/-
  From what each grid point writes back to the whole result array.

  The grid has one point per batch entry. At the point whose block index on the batch axis is b, the two input
  windows hold rows [b, :, :] of the two arguments (block index b on axis 0, block index 0 on the other two
  axes, which the blocks span whole), and the output window's block is rows [b, :, :] of the result. So what the
  point writes back is block b of the outer-product mean of the whole argument arrays; the 32 blocks are
  disjoint slabs that together fill the [32, 256, 256] result, hence after the run the result array is the
  outer-product mean.
-/
import proofs.«106502_j17875653886367_2_alg».proof.Proof.Gen.KernelIdeal.Value
import proofs.«106502_j17875653886367_2_alg».proof.Proof.Spec
import proofs.«106502_j17875653886367_2_alg».proof.Proof.BodyMean

noncomputable section

namespace Cert.OuterMean

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The body's loads and its store start at the origin of their staging buffers. -/
theorem origin3 : (![0, 0, 0] : Fin 3 → Nat) = fun _ => 0 := funext fun a => by fin_cases a <;> rfl

/-- One stored entry against the specification, over plain variables: if the two loaded blocks are rows
    [b, :, :] of the arrays A and B, then the body's value at the block-local index y is the outer-product mean
    of A and B at the array index i that has batch coordinate b and y's row and column. -/
theorem stored_entry (A B : S32x4096x256.Idx → EReal) (x0 x1 : Vec Ideal S1x4096x256 .f32) (b : Fin 32)
    (y : S1x256x256.Idx) (i : S32x256x256.Idx)
    (h0 : ∀ (s : Fin 4096) (p : Fin 256), x0 (ix3 (0 : Fin 1) s p) = A (ix3 b s p))
    (h1 : ∀ (s : Fin 4096) (q : Fin 256), x1 (ix3 (0 : Fin 1) s q) = B (ix3 b s q))
    (hi0 : (i 0).val = b.val) (hi1 : (i 1).val = (y 1).val) (hi2 : (i 2).val = (y 2).val) :
    Gen.k0_pay1 (F := Ideal) x0 x1 y = outerMean A B i := by
  obtain ⟨z, p, q, rfl⟩ : ∃ (z : Fin 1) (p q : Fin 256), y = ix3 z p q := ⟨y 0, y 1, y 2, eq_ix3 y⟩
  have e0 : i 0 = b := Fin.ext hi0
  have e1 : i 1 = p := Fin.ext hi1
  have e2 : i 2 = q := Fin.ext hi2
  rw [payload_apply]
  unfold outerMean
  simp only [h0, h1, e0, e1, e2]

/-- The printed index maps, decided over the 32 grid points: both input windows sit at the output window's
    batch block and at block 0 of the other two axes, and so does the output window. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 32 ∧ win0_2.index t (1 : Fin 3) = 0 ∧ win0_2.index t (2 : Fin 3) = 0 :=
  (by decide +kernel : ∀ t : Fin grid0.N, _)

/-- Every batch entry is some grid point's output block. -/
theorem index_onto : ∀ b : Fin 32, ∃ t : Fin cfg0.N, win0_2.index t = ![b.val, 0, 0] :=
  (by decide +kernel : ∀ b : Fin 32, ∃ t : Fin grid0.N, win0_2.index t = ![b.val, 0, 0])

/-- What grid point t writes back is its block of the outer-product mean of the argument arrays. -/
theorem flushed_eq_outerMean (c : Dev nD) (t : Fin cfg0.N) :
    (dats m 0 c).flushed 2 t
      = ((cfg0.win 2).blk t).view.read (Elt Ideal) (outerMean (V m c main_arg0) (V m c main_arg1)) := by
  rw [Value.flushed2]
  unfold out0_2
  rw [View.canon_unit_zero origin3]
  simp only [View.ld_unit_zero (S := S1x4096x256) origin3]
  obtain ⟨a0, a1, a2, b0, b1, b2, o0, o1, o2⟩ := index_facts t
  funext y
  show Gen.k0_pay1 (F := Ideal) (iblk m c 0 t) (iblk m c 1 t) y
    = outerMean (V m c main_arg0) (V m c main_arg1) (((cfg0.win 2).blk t).view.emb y)
  have hy0 : (y 0).val < 1 := (y 0).isLt
  refine stored_entry (V m c main_arg0) (V m c main_arg1) (iblk m c 0 t) (iblk m c 1 t)
    ⟨win0_2.index t (0 : Fin 3), o0⟩ y (((cfg0.win 2).blk t).view.emb y) ?_ ?_ ?_ ?_ ?_
  · -- the first window's block, read at (0, s, p), is the first argument at (b, s, p)
    intro s p
    show V m c main_arg0 (((cfg0.win 0).blk t).view.emb (ix3 (0 : Fin 1) s p)) = V m c main_arg0 (ix3 _ s p)
    refine congrArg _ (funext fun a => Fin.ext ?_)
    match a with
    | ⟨0, _⟩ => show win0_0.index t (0 : Fin 3) * 1 + 1 * 0 = win0_2.index t (0 : Fin 3); omega
    | ⟨1, _⟩ => show win0_0.index t (1 : Fin 3) * 4096 + 1 * s.val = s.val; omega
    | ⟨2, _⟩ => show win0_0.index t (2 : Fin 3) * 256 + 1 * p.val = p.val; omega
  · -- the second window's block, read at (0, s, q), is the second argument at (b, s, q)
    intro s q
    show V m c main_arg1 (((cfg0.win 1).blk t).view.emb (ix3 (0 : Fin 1) s q)) = V m c main_arg1 (ix3 _ s q)
    refine congrArg _ (funext fun a => Fin.ext ?_)
    match a with
    | ⟨0, _⟩ => show win0_1.index t (0 : Fin 3) * 1 + 1 * 0 = win0_2.index t (0 : Fin 3); omega
    | ⟨1, _⟩ => show win0_1.index t (1 : Fin 3) * 4096 + 1 * s.val = s.val; omega
    | ⟨2, _⟩ => show win0_1.index t (2 : Fin 3) * 256 + 1 * q.val = q.val; omega
  · show win0_2.index t (0 : Fin 3) * 1 + 1 * (y 0).val = win0_2.index t (0 : Fin 3); omega
  · show win0_2.index t (1 : Fin 3) * 256 + 1 * (y 1).val = (y 1).val; omega
  · show win0_2.index t (2 : Fin 3) * 256 + 1 * (y 2).val = (y 2).val; omega

/-- An index of the result array lies in point t's output block iff each coordinate is in the block's range. -/
theorem mem_block (t : Fin cfg0.N) (i : S32x256x256.Idx) :
    i ∈ ((cfg0.win 2).blk t).view.set ↔ ∀ a : Fin 3, win0_2.index t a * S1x256x256.size a ≤ (i a).val
      ∧ (i a).val < win0_2.index t a * S1x256x256.size a + S1x256x256.size a := by
  show i ∈ ((View.whole main_v0).slice (win0_2.rect t)).set ↔ _
  rw [View.set_slice_whole, Rect.mem_set_unit]
  exact Iff.rfl

/-- The 32 output blocks fill the result array: the index (b, p, q) is in the block of the point whose batch
    block index is b. -/
theorem covered (i : S32x256x256.Idx) :
    ∃ t : Fin cfg0.N, (cfg0.win 2).flush t = true ∧ i ∈ ((cfg0.win 2).blk t).view.set := by
  obtain ⟨t, ht⟩ := index_onto (i 0)
  have q0 : win0_2.index t (0 : Fin 3) = (i 0).val := congrFun ht 0
  have q1 : win0_2.index t (1 : Fin 3) = 0 := congrFun ht 1
  have q2 : win0_2.index t (2 : Fin 3) = 0 := congrFun ht 2
  have hi1 : (i 1).val < 256 := (i 1).isLt
  have hi2 : (i 2).val < 256 := (i 2).isLt
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-- After the run the result array is the outer-product mean of the argument arrays as launched. -/
theorem final_outerMean (c : Dev nD) :
    (dats m 0 c).arrAt 2 cfg0.N
      = outerMean (m ((c : Thread nD τ).loc main_arg0)) (m ((c : Thread nD τ).loc main_arg1)) :=
  (dats m 0 c).arrAt_eq_of_cover 2 (outerMean (V m c main_arg0) (V m c main_arg1))
    (fun t _ => flushed_eq_outerMean m c t) covered

/-- The kernel's run: every weakly fair execution terminates with the result array at the outer-product mean of
    the arguments, and the arguments unchanged. -/
theorem kernel_run : θ_run defs (onTc (τ := τ) (main (F := Ideal))) ⟨m, fun _ => 0, ρ⟩ fun r => ∀ c : Dev nD,
      r.2.mem ((c : Thread nD τ).loc main_v0)
        = outerMean (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_outerMean m c), (h c).2⟩) (Value.run_blocks m ρ)

end Cert.OuterMean

end
-- ==== Proof.lean ====
/-
  The outer-product mean: out[b] = (A[b]ᵀ · B[b]) / 4096 for A, B of shape [32, 4096, 256].

  The kernel walks the 32 batch entries, one grid point each. At entry b it loads rows [b, :, :] of both
  arguments, contracts them over the 4096 positions into a zero accumulator (after a narrowing to bf16, which is
  the identity on exact values) and multiplies by the float word for 2^(-12). The reference contracts the whole
  arrays over the position axis, batched over b, and divides by the float word for 2^12.

  On the extended reals both are, at (b, p, q), the sum over s of A[b, s, p] * B[b, s, q] scaled by 1/4096:
    * the kernel's accumulator starts at 0 and 0 + x = x;
    * a sum in the extended reals does not depend on the order of its terms;
    * x / 4096 = x * (1/4096) for every extended real x, the infinities included, because 4096 is a nonzero real
      and both float words are exact powers of two (Proof/Scale.lean).
  None of these needs the inputs to be finite, so the precondition is not opened.

  Proof/Spec.lean states that function; Proof/RefMean.lean shows the reference's last stage is it;
  Proof/BodyMean.lean reads the kernel body's stored value at an index; Proof/Blocks.lean shows each grid point
  writes its slab of it and the 32 slabs fill the result. The idealized kernel is the kernel's own text read on the
  extended reals, no operation replaced, so the idealization conjunct is the proposition True; the three frames
  are the generated runs.
-/
import proofs.«106502_j17875653886367_2_alg».proof.Defs
import proofs.«106502_j17875653886367_2_alg».proof.Proof.Gen.Kernel
import proofs.«106502_j17875653886367_2_alg».proof.Proof.Gen.Kernel.Skeleton
import proofs.«106502_j17875653886367_2_alg».proof.Proof.Gen.Kernel.Launch
import proofs.«106502_j17875653886367_2_alg».proof.Proof.Gen.Kernel.Points
import proofs.«106502_j17875653886367_2_alg».proof.Proof.Gen.Kernel.Frame
import proofs.«106502_j17875653886367_2_alg».proof.Proof.Gen.KernelIdeal
import proofs.«106502_j17875653886367_2_alg».proof.Proof.Gen.KernelIdeal.Skeleton
import proofs.«106502_j17875653886367_2_alg».proof.Proof.Gen.KernelIdeal.Launch
import proofs.«106502_j17875653886367_2_alg».proof.Proof.Gen.KernelIdeal.Points
import proofs.«106502_j17875653886367_2_alg».proof.Proof.Gen.KernelIdeal.Frame
import proofs.«106502_j17875653886367_2_alg».proof.Proof.Gen.ReferenceIdeal
import proofs.«106502_j17875653886367_2_alg».proof.Proof.Gen.Pre_finite_inputs
import proofs.«106502_j17875653886367_2_alg».proof.Proof.Gen.KernelIdeal.Value
import proofs.«106502_j17875653886367_2_alg».proof.Proof.Gen.ReferenceIdeal.Run
import proofs.«106502_j17875653886367_2_alg».proof.Proof.Gen.ReferenceIdeal.Read
import proofs.«106502_j17875653886367_2_alg».proof.Proof.RefMean
import proofs.«106502_j17875653886367_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the result array at the outer-product mean of the
    arguments: the kernel slab by slab, the reference in one batched contraction and a quotient. -/
theorem algebraic : Cert.algebraic_KernelIdeal_ReferenceIdeal := by
  intro m ρ m' ρ' _ hagree
  refine ⟨_, Cert.OuterMean.kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.OuterMean.reference_eq_outerMean _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
